-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384 .f32) (main_arg1 : FVec F S16384 .f32) : IVec S_ 1 :=
  let main_v0 : FVec F S16384 .f32 := Host.absf main_arg0
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  main_v8
-- ==== Kernel.lean ====
abbrev S16384 : Shape := ⟨1, ![16384]⟩
abbrev S128x128 : Shape := ⟨2, ![128, 128]⟩
abbrev S1x1 : Shape := ⟨2, ![1, 1]⟩
abbrev S128 : Shape := ⟨1, ![128]⟩
abbrev S128x1 : Shape := ⟨2, ![128, 1]⟩
abbrev S1 : Shape := ⟨1, ![1]⟩
abbrev S_ : Shape := ⟨0, ![]⟩

abbrev nBuf : Space → Nat
  | .hbm => 6
  | .vmem => 3
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S128x128, .f32⟩
  | .hbm, ⟨3, _⟩ => ⟨S128x128, .f32⟩
  | .hbm, ⟨4, _⟩ => ⟨S1x1, .f32⟩
  | .hbm, ⟨5, _⟩ => ⟨S_, .f32⟩
  | .local _ .vmem, ⟨0, _⟩ => ⟨S128x128, .f32⟩
  | .local _ .vmem, ⟨1, _⟩ => ⟨S128x128, .f32⟩
  | .local _ .vmem, ⟨2, _⟩ => ⟨S1x1, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S16384_S128x128 : S16384.ShapeCasts S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S128x128_S128 : S128x128.Reduces [1] S128
  shapeCasts_S128_S128x1 : S128.ShapeCasts S128x1
  reduces_S128x1_S1 : S128x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S128x128.size a
  hwx0_0 : ∀ i : grid0.Coords, EltTy.bits .f32 = 32 ∨ (Rect.block (s := S128x128) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S128x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S16384, .f32⟩
  | .hbm, ⟨3, _⟩ => ⟨S16384x1, .f32⟩
  | .hbm, ⟨4, _⟩ => ⟨S1x16384, .f32⟩
  | .hbm, ⟨5, _⟩ => ⟨S16384x16384, .f32⟩
  | .hbm, ⟨6, _⟩ => ⟨S16384x16384, .f32⟩
  | .hbm, ⟨7, _⟩ => ⟨S16384x16384, .f32⟩
  | .hbm, ⟨8, _⟩ => ⟨S16384x16384, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  reducesTo_S16384x16384_S_d0_1 : S16384x16384.ReducesTo [0, 1] S_
  h_S_ : 0 < S_.numel

variable [Facts₀]

class Facts : Prop extends Facts₀ where

variable [Facts]
-- ==== Proof.LibTileSum.lean ====
/-
  Sums over a range cut into equal blocks, and over a square cut into square tiles.

  In a commutative monoid the order and grouping of a finite sum are free. So the sum of `g` over the `A · B` indices
  `0 … A·B − 1` is the sum, over the `A` blocks, of the sum over the `B` indices `B·i … B·i + B − 1` of block `i`; and the sum of
  `f` over a square of side `A · B` is the sum over its `A × A` tiles of the sum over the `B × B` entries of each tile.
  Likewise the sum over the points `t = B·i + j` of an `A × B` grid visited row by row is the double sum over `(i, j)`.
  Only associativity and commutativity of `+` are used, so the laws hold on the extended reals whatever the terms are.
-/
import Mathlib.Algebra.BigOperators.Fin
import Mathlib.Algebra.BigOperators.Intervals
import Mathlib.Logic.Equiv.Fin.Basic
import Mathlib.Tactic

namespace Cert.LibTileSum

open Finset

/-- Index `r` of block `i` lies below `A · B`. -/
theorem blk_lt {A B : ℕ} (i : Fin A) (r : Fin B) : B * i.val + r.val < A * B := by
  have h1 : B * (i.val + 1) ≤ B * A := Nat.mul_le_mul_left B i.isLt
  have h2 := r.isLt
  rw [Nat.mul_add, Nat.mul_one] at h1
  rw [Nat.mul_comm A B]
  omega

/-- Index `r` of block `i`, as an index of the whole range. -/
def blk {A B N : ℕ} (h : A * B = N) (i : Fin A) (r : Fin B) : Fin N := ⟨B * i.val + r.val, h ▸ blk_lt i r⟩

@[simp] theorem blk_val {A B N : ℕ} (h : A * B = N) (i : Fin A) (r : Fin B) : (blk h i r).val = B * i.val + r.val := rfl

/-- A sum over `A · B` indices, taken block by block. -/
theorem sum_blocks {M : Type*} [AddCommMonoid M] {A B N : ℕ} (h : A * B = N) (g : Fin N → M) :
    ∑ x : Fin N, g x = ∑ i : Fin A, ∑ r : Fin B, g (blk h i r) := by
  subst h
  rw [← Equiv.sum_comp finProdFinEquiv g, Fintype.sum_prod_type]
  refine Finset.sum_congr rfl fun i _ => Finset.sum_congr rfl fun r _ => congrArg g (Fin.ext ?_)
  show r.val + B * i.val = B * i.val + r.val
  exact Nat.add_comm _ _

/-- A sum over a square of side `A · B`, taken tile by tile. -/
theorem sum_tiles {M : Type*} [AddCommMonoid M] {A B N : ℕ} (h : A * B = N) (f : Fin N → Fin N → M) :
    ∑ x : Fin N, ∑ y : Fin N, f x y
      = ∑ i : Fin A, ∑ j : Fin A, ∑ r : Fin B, ∑ c : Fin B, f (blk h i r) (blk h j c) := by
  calc ∑ x : Fin N, ∑ y : Fin N, f x y
      = ∑ i : Fin A, ∑ r : Fin B, ∑ y : Fin N, f (blk h i r) y := sum_blocks h _
    _ = ∑ i : Fin A, ∑ r : Fin B, ∑ j : Fin A, ∑ c : Fin B, f (blk h i r) (blk h j c) :=
        Finset.sum_congr rfl fun i _ => Finset.sum_congr rfl fun r _ => sum_blocks h _
    _ = ∑ i : Fin A, ∑ j : Fin A, ∑ r : Fin B, ∑ c : Fin B, f (blk h i r) (blk h j c) :=
        Finset.sum_congr rfl fun i _ => Finset.sum_comm

/-- A sum over the points of an `A × B` grid visited row by row (point `t` has coordinates `(t / B mod A, t mod B)`)
    is the double sum over the coordinates. -/
theorem sum_rowMajor {M : Type*} [AddCommMonoid M] {A B N : ℕ} (h : A * B = N) (hA : 0 < A) (hB : 0 < B)
    (g : Fin A → Fin B → M) :
    ∑ t : Fin N, g ⟨t.val / B % A, Nat.mod_lt _ hA⟩ ⟨t.val % B, Nat.mod_lt _ hB⟩ = ∑ i : Fin A, ∑ j : Fin B, g i j := by
  rw [sum_blocks h]
  refine Finset.sum_congr rfl fun i _ => Finset.sum_congr rfl fun j _ => ?_
  have e1 : (B * i.val + j.val) / B = i.val := by
    rw [Nat.add_comm, Nat.add_mul_div_left _ _ hB, Nat.div_eq_of_lt j.isLt, Nat.zero_add]
  have e2 : (B * i.val + j.val) % B = j.val := by
    rw [Nat.add_comm, Nat.add_mul_mod_self_left, Nat.mod_eq_of_lt j.isLt]
  congr 1
  · exact Fin.ext (by show (B * i.val + j.val) / B % A = i.val; rw [e1, Nat.mod_eq_of_lt i.isLt])
  · exact Fin.ext (by show (B * i.val + j.val) % B = j.val; exact e2)

end Cert.LibTileSum
-- ==== Proof.LibERealCoe.lean ====
/-
  The reals inside the extended reals.

  The inclusion of the real numbers into the extended reals is an order embedding and an additive map on the reals, so
  it commutes with finite sums, with `min` and with `max`: an expression built from real entries by these operations may
  be computed in the reals and included afterwards.
-/
import Mathlib.Data.EReal.Operations
import Mathlib.Algebra.BigOperators.Fin

namespace Cert.LibERealCoe

/-- The inclusion of the reals commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals commutes with `min`. -/
theorem coe_min (a b : ℝ) : ((min a b : ℝ) : EReal) = min (a : EReal) (b : EReal) :=
  (EReal.coe_strictMono.monotone).map_min

/-- The inclusion of the reals commutes with `max`. -/
theorem coe_max (a b : ℝ) : ((max a b : ℝ) : EReal) = max (a : EReal) (b : EReal) :=
  (EReal.coe_strictMono.monotone).map_max

end Cert.LibERealCoe
-- ==== Proof.Consts.lean ====
/-
  The float constants of the two programs, as the real numbers their f32 words denote: 1, 2, the number of
  samples n = 16384, twice that number, and the number of ordered pairs of distinct samples n·(n − 1) = 268419072.
  Each is an integer below 2^24 times a power of two, so the word denotes it exactly.
-/
import Idealize.ShloMosaic.PureOps.Ideal

noncomputable section

namespace Cert.PairLoss.Consts

open Idealize.ShloMosaic

/-- The word of `1.0` denotes 1. -/
theorem ofBits_one : Ideal.ofBits .f32 0x3F800000#32 = ((1 : ℝ) : EReal) := by
  simp [Ideal.ofBits, Ideal.ieee, -EReal.coe_mul]; norm_num

/-- The word of `2.0` denotes 2. -/
theorem ofBits_two : Ideal.ofBits .f32 0x40000000#32 = ((2 : ℝ) : EReal) := by
  simp [Ideal.ofBits, Ideal.ieee, -EReal.coe_mul]; norm_num

/-- The word of `16384.0` denotes n = 16384. -/
theorem ofBits_n : Ideal.ofBits .f32 0x46800000#32 = ((16384 : ℝ) : EReal) := by
  simp [Ideal.ofBits, Ideal.ieee, -EReal.coe_mul]; norm_num

/-- The word of `32768.0` denotes 2·n. -/
theorem ofBits_two_n : Ideal.ofBits .f32 0x47000000#32 = ((32768 : ℝ) : EReal) := by
  simp [Ideal.ofBits, Ideal.ieee, -EReal.coe_mul]; norm_num

/-- The word `0x4D7FFC00` denotes n·(n − 1) = 16383 · 2^14. -/
theorem ofBits_pairs : Ideal.ofBits .f32 0x4D7FFC00#32 = ((268419072 : ℝ) : EReal) := by
  simp [Ideal.ofBits, Ideal.ieee, -EReal.coe_mul]; norm_num

end Cert.PairLoss.Consts

end
-- ==== Proof.Moments.lean ====
/-
  The mean squared pairwise difference through two moments.

  For real numbers e_0 … e_{n−1} the sum over all ordered pairs (i, j) of (e_i − e_j)² expands to
  n·Σe² − 2·(Σe)·(Σe) + n·Σe², that is 2n·Σe² − 2·(Σe)². One program forms the n × n table of squared differences and
  divides its total by n·(n − 1); the other takes the two moments Σe and Σe², each as a sum over the 128 rows of the
  rows' sums of the samples laid out 128 to a row, and returns (2n·Σe² − (2·Σe)·Σe) / (n·(n − 1)). Distributing a product
  over a sum is not valid at infinities, so the law is stated for entries that are real numbers; then every intermediate
  value is a real number, the divisor is the nonzero real 268419072 on both sides, and the identity is the real one.
-/
import Mathlib.Tactic
import Idealize.ShloMosaic.PureOps.Ideal.Laws
import proofs.«150791_j35613868818814_1_alg».proof.Proof.LibTileSum
import proofs.«150791_j35613868818814_1_alg».proof.Proof.LibERealCoe
import proofs.«150791_j35613868818814_1_alg».proof.Proof.Consts

noncomputable section

namespace Cert.PairLoss

open Idealize.ShloMosaic Cert.LibTileSum

/-- Over the reals: the sum over ordered pairs of the squared differences, through the two moments. -/
theorem sum_sq_diff {n : ℕ} (e : Fin n → ℝ) :
    ∑ i, ∑ j, (e i - e j) * (e i - e j) = 2 * n * ∑ i, e i * e i - 2 * (∑ i, e i) * (∑ i, e i) := by
  have h : ∀ i j, (e i - e j) * (e i - e j) = e i * e i - 2 * (e i * e j) + e j * e j := fun i j => by ring
  simp only [h, Finset.sum_add_distrib, Finset.sum_sub_distrib, Finset.sum_const, Finset.card_univ, Fintype.card_fin,
    ← Finset.mul_sum, ← Finset.sum_mul, nsmul_eq_mul]
  ring

/-- Sample `q` of row `p` when the 16384 samples are laid out 128 to a row. -/
abbrev cell (p q : Fin 128) : Fin 16384 := blk (by norm_num : 128 * 128 = 16384) p q

/-- The total of the table of squared differences from the start value `c0`, over the number of ordered pairs of distinct
    samples computed as `cn · (cn − c1)`. -/
def pairLoss (c0 cn c1 : EReal) (e : Fin 16384 → EReal) : EReal :=
  Ideal.div (c0 + ∑ i, ∑ j, (e i - e j) * (e i - e j)) (cn * (cn - c1))

/-- The two moments, each a sum over rows of the rows' sums, combined as `(c2n · Σe² − (c2 · Σe) · Σe) / cpairs`. -/
def momentLoss (c2n c2 cpairs : EReal) (e : Fin 128 → Fin 128 → EReal) : EReal :=
  Ideal.div (c2n * (∑ p, ∑ q, e p q * e p q) - c2 * (∑ p, ∑ q, e p q) * (∑ p, ∑ q, e p q)) cpairs

/-- On real entries, with the constants at their values (0, n, 1 and 2n, 2, n·(n − 1)), the two are equal. -/
theorem pairLoss_eq_momentLoss_real (r : Fin 16384 → ℝ) :
    pairLoss 0 ((16384 : ℝ) : EReal) ((1 : ℝ) : EReal) (fun i => ((r i : ℝ) : EReal))
      = momentLoss ((32768 : ℝ) : EReal) ((2 : ℝ) : EReal) ((268419072 : ℝ) : EReal) (fun p q => ((r (cell p q) : ℝ) : EReal)) := by
  unfold pairLoss momentLoss
  have hd : ((16384 : ℝ) : EReal) * (((16384 : ℝ) : EReal) - ((1 : ℝ) : EReal)) = ((268419072 : ℝ) : EReal) := by
    rw [← EReal.coe_sub, ← EReal.coe_mul]; norm_num
  rw [hd, zero_add, Ideal.div_coe (by norm_num : (268419072 : ℝ) ≠ 0), Ideal.div_coe (by norm_num : (268419072 : ℝ) ≠ 0)]
  simp only [← EReal.coe_sub, ← EReal.coe_mul, ← Cert.LibERealCoe.coe_sum]
  rw [EReal.coe_eq_coe_iff, sum_sq_diff r, sum_blocks (by norm_num : 128 * 128 = 16384) (fun i => r i * r i),
    sum_blocks (by norm_num : 128 * 128 = 16384) r]
  push_cast
  ring

/-- The law on the extended reals: when every entry of `x` and of `y` is a real number, the pair form of the
    differences `x − y`, with the reference's constant words, is the moment form with the kernel's. -/
theorem pairLoss_eq_momentLoss (x y : Fin 16384 → EReal) (hx : ∀ i, ∃ r : ℝ, x i = (r : EReal)) (hy : ∀ i, ∃ r : ℝ, y i = (r : EReal)) :
    pairLoss (Ideal.ofBits .f32 0x00000000#32) (Ideal.ofBits .f32 0x46800000#32) (Ideal.ofBits .f32 0x3F800000#32)
        (fun i => x i - y i)
      = momentLoss (Ideal.ofBits .f32 0x47000000#32) (Ideal.ofBits .f32 0x40000000#32) (Ideal.ofBits .f32 0x4D7FFC00#32)
        (fun p q => x (cell p q) - y (cell p q)) := by
  choose a ha using hx
  choose b hb using hy
  rw [Ideal.ofBits_zero_f32, Consts.ofBits_n, Consts.ofBits_one, Consts.ofBits_two_n, Consts.ofBits_two, Consts.ofBits_pairs]
  have e1 : (fun i => x i - y i) = fun i => (((a i - b i : ℝ)) : EReal) := funext fun i => by rw [ha, hb, EReal.coe_sub]
  have e2 : (fun p q => x (cell p q) - y (cell p q)) = fun p q => (((a (cell p q) - b (cell p q) : ℝ)) : EReal) :=
    funext fun p => funext fun q => by rw [ha, hb, EReal.coe_sub]
  rw [e1, e2]
  exact pairLoss_eq_momentLoss_real fun i => a i - b i

end Cert.PairLoss

end
-- ==== Proof.Finite.lean ====
/-
  Finite inputs are real numbers.

  The precondition says, of each of the two sample vectors, that every entry's absolute value is strictly below +∞. On
  the extended reals |a| = max a (−a) is +∞ exactly at the two infinities, so every entry is a real number. The
  precondition is an `and` of two `all`-reductions; each reduction that came out true was true at every index.
-/
import proofs.«150791_j35613868818814_1_alg».proof.Proof.Gen.Pre_finite_inputs
import Idealize.ShloMosaic.Lib.ReduceAll
import Idealize.ShloMosaic.Lib.ValueIdx
import Idealize.ShloMosaic.PureOps.Ideal.Laws

noncomputable section

namespace Cert.PairLoss.Finite

open Idealize.ShloMosaic Idealize.ShloMosaic.ValueIdx Cert.Pre_finite_inputs

/-- The scalar shape has one index. -/
instance : Subsingleton S_.Idx := ⟨fun a b => funext fun d => d.elim0⟩

/-- The f32 word with all exponent bits set and no fraction bit denotes +∞. -/
theorem ofBits_inf : Ideal.ofBits .f32 0x7F800000#32 = ⊤ := by
  simp [Ideal.ofBits, Ideal.ieee]

/-- An extended real whose absolute value compares below +∞ is a real number. -/
theorem real_of_abs_lt (a : EReal) (h : Ideal.cmp .olt (max a (-a)) (Ideal.ofBits .f32 0x7F800000#32) = 1#1) :
    ∃ r : ℝ, a = (r : EReal) := by
  rw [ofBits_inf] at h
  have hlt : max a (-a) < ⊤ := by
    by_contra hn
    simp [Ideal.cmp, hn] at h
  induction a using EReal.rec with
  | bot => simp at hlt
  | coe r => exact ⟨r, rfl⟩
  | top => simp at hlt

/-- Under the precondition every entry of both sample vectors is a real number. -/
theorem entries_real (x y : FVec Ideal S16384 .f32) (h : fn (F := Ideal) x y = fun _ => 1#1) :
    (∀ i : Fin 16384, ∃ r : ℝ, x (ix1 i) = (r : EReal)) ∧ (∀ i : Fin 16384, ∃ r : ℝ, y (ix1 i) = (r : EReal)) := by
  have h0 := congrFun h ix0
  dsimp only [fn] at h0
  obtain ⟨hx, hy⟩ := IntOp.andi_eq_one.1 h0
  refine ⟨fun i => ?_, fun i => ?_⟩
  · exact real_of_abs_lt _ (Host.reduce_andi_all _ _ _ _ _ hx (ix1 i))
  · exact real_of_abs_lt _ (Host.reduce_andi_all _ _ _ _ _ hy (ix1 i))

end Cert.PairLoss.Finite

end
-- ==== Proof.RefValue.lean ====
/-
  The reference's result as the pair form.

  The reference subtracts the two sample vectors, lays the difference vector e out once as a column and once as a row,
  repeats both to the n × n table, subtracts, squares, sums the whole table from zero and divides by n·(n − 1). Read at
  entry (a, b) the table holds (e_a − e_b)·(e_a − e_b): the column repeated reads e at the row coordinate, the row
  repeated reads e at the column coordinate. The sum over all entries of a rank-2 table is the double sum over its
  coordinates.
-/
import proofs.«150791_j35613868818814_1_alg».proof.Proof.Gen.ReferenceIdeal.Read
import proofs.«150791_j35613868818814_1_alg».proof.Proof.Moments
import Idealize.ShloMosaic.Lib.ValueIdx

noncomputable section

namespace Cert.ReferenceIdeal.PairValue

open Cert.ReferenceIdeal Cert.ReferenceIdeal.Read Idealize.ShloMosaic Idealize.ShloMosaic.ValueIdx Cert.PairLoss

/-- Entry (a, b) of the repeated column is read from the difference vector at a. -/
theorem col_index (a b : Fin 16384) : idx_main_v1 (idx_main_v3 (ix2 a b)) = ix1 a :=
  funext fun d => Fin.ext (by match d with | ⟨0, _⟩ => rfl)

/-- Entry (a, b) of the repeated row is read from the difference vector at b. -/
theorem row_index (a b : Fin 16384) : idx_main_v2 (idx_main_v4 (ix2 a b)) = ix1 b :=
  funext fun d => Fin.ext (by match d with | ⟨0, _⟩ => rfl)

/-- The table of squared differences at entry (a, b). -/
theorem table_apply (x0 x1 : FVec Ideal S16384 .f32) (a b : Fin 16384) :
    val_main_v6 (F := Ideal) x0 x1 (ix2 a b)
      = (x0 (ix1 a) - x1 (ix1 a) - (x0 (ix1 b) - x1 (ix1 b))) * (x0 (ix1 a) - x1 (ix1 a) - (x0 (ix1 b) - x1 (ix1 b))) := by
  rw [val_main_v6_apply, val_main_v5_apply, val_main_v3_apply, val_main_v4_apply, val_main_v1_apply, val_main_v2_apply,
    col_index, row_index, val_main_v0_apply, val_main_v0_apply]
  rfl

/-- The reference's result is the pair form of the differences, with the reference's constant words. -/
theorem result_eq_pairLoss (x0 x1 : FVec Ideal S16384 .f32) (i : S_.Idx) :
    val_main_v10 (F := Ideal) x0 x1 i
      = pairLoss (Ideal.ofBits .f32 0x00000000#32) (Ideal.ofBits .f32 0x46800000#32) (Ideal.ofBits .f32 0x3F800000#32)
          (fun k => x0 (ix1 k) - x1 (ix1 k)) := by
  rw [val_main_v10_apply, val_main_v7_apply, val_main_v9_apply, val_main_v8_apply, val_main_cst_apply, val_main_cst_0_apply,
    val_main_cst_1_apply, val_main_cst_2_apply, sum_idx2]
  simp only [table_apply]
  rfl

end Cert.ReferenceIdeal.PairValue

end
-- ==== Proof.LibKeepdims.lean ====
/-
  Keep-dimension layout operations and row reductions of a matrix, read at an index given by coordinates.
  A row statistic of an [a, b] matrix (a maximum or a sum along the columns) is a vector of length a; kept as a
  column it is cast to [a, 1] and broadcast back over the b columns. Read at (p, c) each step is the identity on
  the row coordinate: the cast reads the vector at p, the broadcast reads the column at (p, 0), and the reductions
  are the fold of max from the start word, and the sum, over the b entries of row p.
-/
import Idealize.ShloMosaic.Lib.ValueIdx
import Idealize.ShloMosaic.Lib.ValueLayout
import Idealize.ShloMosaic.PureOps.Ideal.Laws

namespace Idealize.ShloMosaic.ValueIdx

open Idealize.ShloMosaic

variable {α : Type}

/-- A vector of length `a` cast to the column shape `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a one-axis reduction along the columns inserts: row `p`, column `k`. -/
theorem lift_cols {a b : ℕ} (h : (⟨2, ![a, b]⟩ : Shape).Reduces [1] ⟨1, ![a]⟩) (p : Fin a) (k : Fin b) :
    h.lift (ix1 p) k = ix2 p k :=
  funext fun ax => Fin.ext (by match ax with | ⟨0, _⟩ => rfl | ⟨1, _⟩ => rfl)

/-- The maximum along the columns of an `[a, b]` matrix at row `p`: the fold of max, from the start word, over the
    row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  have e : (src ∘ h.lift (ix1 p) : Fin b → EReal) = fun k => src (ix2 p k) :=
    funext fun k => congrArg src (lift_cols h p k)
  exact congrArg (fun f : Fin b → EReal => (Finset.univ : Finset (Fin b)).fold max (Ideal.ofBits φ acc) f) e

/-- The sum along the columns of an `[a, b]` matrix at row `p`: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_cols h p k)

end Idealize.ShloMosaic.ValueIdx
-- ==== Proof.LibColSum.lean ====
/-
  The sum down a one-column matrix, read at its one result.
  A reduction along the rows of an [a, 1] matrix leaves a vector of length one; its entry is the sum of the a entries
  of the column. With the row sum of an [a, b] matrix kept as an [a, 1] column this gives the sum of all a·b entries
  as a sum over rows of the rows' sums.
-/
import Idealize.ShloMosaic.Lib.ValueIdx
import Idealize.ShloMosaic.PureOps.Ideal.Laws

namespace Idealize.ShloMosaic.ValueIdx

open Idealize.ShloMosaic

/-- The index a one-axis reduction along the rows of an `[a, 1]` matrix inserts: row `k` of the one column. -/
theorem lift_rows {a : ℕ} (h : (⟨2, ![a, 1]⟩ : Shape).Reduces [0] ⟨1, ![1]⟩) (k : Fin a) :
    h.lift (ix1 (0 : Fin 1)) k = ix2 k (0 : Fin 1) :=
  funext fun ax => Fin.ext (by match ax with | ⟨0, _⟩ => rfl | ⟨1, _⟩ => rfl)

/-- The sum along the rows of an `[a, 1]` matrix, on the extended reals: the sum of its `a` entries. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin a, src (ix2 k (0 : Fin 1)) := by
  refine (Ideal.multiReduction_add_single src acc h hφ hacc (ix1 (0 : Fin 1))).trans ?_
  exact Finset.sum_congr rfl fun k _ => congrArg src (lift_rows h k)

end Idealize.ShloMosaic.ValueIdx
-- ==== Proof.KernelPayload.lean ====
/-
  The kernel body's value as the moment form.

  The body subtracts the two 128 × 128 tiles, and takes the total of the differences and the total of their squares the
  same way: the sum along each row, kept as a 128 × 1 column, then the sum down that column, kept as a 1 × 1 tile. Such a
  total is the double sum over rows and columns of the tile. The one stored value is then
  (2n · Σe² − (2 · Σe) · Σe) / (n·(n − 1)) with the three constants the body splats.
-/
import proofs.«150791_j35613868818814_1_alg».proof.Proof.Gen.KernelIdeal.Skeleton
import proofs.«150791_j35613868818814_1_alg».proof.Proof.Moments
import proofs.«150791_j35613868818814_1_alg».proof.Proof.LibKeepdims
import proofs.«150791_j35613868818814_1_alg».proof.Proof.LibColSum
import Idealize.ShloMosaic.Lib.Pipeline.Value
import Idealize.ShloMosaic.Lib.ValueIdx

noncomputable section

namespace Cert.KernelIdeal.MomentValue

open Cert.KernelIdeal Cert.KernelIdeal.Gen Idealize.ShloMosaic Idealize.ShloMosaic.ValueIdx Cert.PairLoss

/-- The total of a 128 × 128 tile as the body takes it: row sums, kept as a column; the column's sum, kept as a 1 × 1 tile. -/
def total (v : FVec Ideal S128x128 .f32) : EReal :=
  shapeCast S1x1 (multiReduction .add [0] S1 (shapeCast S128x1 (multiReduction .add [1] S128 v 0x00000000#32
    reduces_S128x128_S128 (.inl rfl) rfl) shapeCasts_S128_S128x1) 0x00000000#32 reduces_S128x1_S1 (.inl rfl) rfl)
    shapeCasts_S1_S1x1 (ix2 (0 : Fin 1) (0 : Fin 1))

/-- It is the double sum over the tile's rows and columns. -/
theorem total_eq (v : FVec Ideal S128x128 .f32) : total v = ∑ p : Fin 128, ∑ q : Fin 128, v (ix2 p q) := by
  unfold total
  refine (shapeCast_a_a1_apply _ _ (0 : Fin 1) (0 : Fin 1)).trans ?_
  refine (colSum_apply _ _ _ _ _).trans ?_
  refine Finset.sum_congr rfl fun p _ => ?_
  refine (shapeCast_a_a1_apply _ _ p (0 : Fin 1)).trans ?_
  exact rowSum_apply _ _ _ _ _ p

/-- The stored value, with the two totals named. -/
theorem pay_totals (x0 x1 : FVec Ideal S128x128 .f32) :
    k0_pay1 (F := Ideal) x0 x1 (ix2 (0 : Fin 1) (0 : Fin 1))
      = Ideal.div
          (Ideal.ofBits .f32 0x47000000#32
              * total (mulf (subf (shapeCast S128x128 x0 shapeCasts_S128x128_S128x128) (shapeCast S128x128 x1 shapeCasts_S128x128_S128x128))
                  (subf (shapeCast S128x128 x0 shapeCasts_S128x128_S128x128) (shapeCast S128x128 x1 shapeCasts_S128x128_S128x128)))
            - Ideal.ofBits .f32 0x40000000#32
                * total (subf (shapeCast S128x128 x0 shapeCasts_S128x128_S128x128) (shapeCast S128x128 x1 shapeCasts_S128x128_S128x128))
                * total (subf (shapeCast S128x128 x0 shapeCasts_S128x128_S128x128) (shapeCast S128x128 x1 shapeCasts_S128x128_S128x128)))
          (Ideal.ofBits .f32 0x4D7FFC00#32) := rfl

/-- The stored value is the moment form of the two tiles' differences. -/
theorem pay_eq_momentLoss (x0 x1 : FVec Ideal S128x128 .f32) :
    k0_pay1 (F := Ideal) x0 x1 (ix2 (0 : Fin 1) (0 : Fin 1))
      = momentLoss (Ideal.ofBits .f32 0x47000000#32) (Ideal.ofBits .f32 0x40000000#32) (Ideal.ofBits .f32 0x4D7FFC00#32)
          (fun p q => x0 (ix2 p q) - x1 (ix2 p q)) := by
  rw [pay_totals, total_eq, total_eq, shapeCast_self, shapeCast_self]
  rfl

end Cert.KernelIdeal.MomentValue

end
-- ==== Proof.KernelRun.lean ====
/-
  The kernel program's result as the moment form of its two arguments.

  Before the region each sample vector is viewed as a 128 × 128 matrix, sample 128·p + q at (p, q). The grid has one
  point; there each input window's block is the whole matrix, the body stores its one value, and the 1 × 1 output block is
  the whole output array. After the region the 1 × 1 array is viewed as a scalar.
-/
import proofs.«150791_j35613868818814_1_alg».proof.Proof.Gen.KernelIdeal.Frame
import proofs.«150791_j35613868818814_1_alg».proof.Proof.KernelPayload
import Idealize.ShloMosaic.Lib.Pipeline.Value
import Idealize.ShloMosaic.Lib.StableHlo.Run
import Idealize.ShloMosaic.Lib.ValueIdx

noncomputable section

namespace Cert.KernelIdeal.MomentValue

open Cert.KernelIdeal Cert.KernelIdeal.Gen Idealize.ShloMosaic Idealize.ShloMosaic.TcCoe Idealize.ShloMosaic.ValueIdx
open Idealize.SL.Sem Cert.PairLoss
open Idealize.ShloMosaic.Pipeline (Dat)

variable (m : (ℓ : Loc nD τ sig) → Buf (Elt Ideal) ℓ) (ρ : Dev nD → PrngReg)

/-- The moment form of the differences of two sample vectors, samples laid out 128 to a row, with the kernel's constants. -/
def loss (x y : FVec Ideal S16384 .f32) : EReal :=
  momentLoss (Ideal.ofBits .f32 0x47000000#32) (Ideal.ofBits .f32 0x40000000#32) (Ideal.ofBits .f32 0x4D7FFC00#32)
    (fun p q => x (ix1 (cell p q)) - y (ix1 (cell p q)))

/-- A vector of 16384 entries viewed as a 128 × 128 matrix holds entry 128·p + q at (p, q). -/
theorem reshape_apply {α : Type} (x : S16384.Idx → α) (h : S16384.ShapeCasts S128x128) (p q : Fin 128) :
    shapeCast S128x128 x h (ix2 p q) = x (ix1 (cell p q)) :=
  shapeCast_apply x h _ _ (by
    rw [Shape.rowMajor_val_one, Shape.rowMajor_val_two]
    show 128 * p.val + q.val = p.val * 128 + q.val
    omega)

/-- The first matrix the region finds is the first argument, viewed 128 × 128. -/
theorem V_main_v0 (c : Dev nD) :
    (V m c main_v0 : S128x128.Idx → EReal) = shapeCast S128x128 (m ((c : Thread nD τ).loc main_arg0)) shapeCasts_S16384_S128x128 := by
  show StableHlo.after hostOps0 (fun b => m (c, b)) (Proc.devRef .tc main_v0) = _
  after_results
  rfl

/-- The second matrix the region finds is the second argument, viewed 128 × 128. -/
theorem V_main_v1 (c : Dev nD) :
    (V m c main_v1 : S128x128.Idx → EReal) = shapeCast S128x128 (m ((c : Thread nD τ).loc main_arg1)) shapeCasts_S16384_S128x128 := by
  show StableHlo.after hostOps0 (fun b => m (c, b)) (Proc.devRef .tc main_v1) = _
  after_results
  rfl

/-- At the grid's one point every window's block index is (0, 0). -/
theorem idx_zero : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The first input block at (p, q) is sample 128·p + q of the first argument. -/
theorem iblk0_apply (c : Dev nD) (t : Fin cfg0.N) (p q : Fin 128) :
    (iblk m c 0 t : S128x128.Idx → EReal) (ix2 p q) = (m ((c : Thread nD τ).loc main_arg0) : S16384.Idx → EReal) (ix1 (cell p q)) := by
  obtain ⟨e0, e1, -, -, -, -⟩ := idx_zero t
  have hemb : ((cfg0.win 0).blk t).view.emb (ix2 p q) = ix2 p q := by
    funext a; apply Fin.ext
    match a with
    | ⟨0, _⟩ => show win0_0.index t (0 : Fin 2) * 128 + 1 * p.val = p.val; omega
    | ⟨1, _⟩ => show win0_0.index t (1 : Fin 2) * 128 + 1 * q.val = q.val; omega
  show (V m c main_v0 : S128x128.Idx → EReal) (((cfg0.win 0).blk t).view.emb (ix2 p q)) = _
  rw [hemb, V_main_v0, reshape_apply]

/-- The second input block at (p, q) is sample 128·p + q of the second argument. -/
theorem iblk1_apply (c : Dev nD) (t : Fin cfg0.N) (p q : Fin 128) :
    (iblk m c 1 t : S128x128.Idx → EReal) (ix2 p q) = (m ((c : Thread nD τ).loc main_arg1) : S16384.Idx → EReal) (ix1 (cell p q)) := by
  obtain ⟨-, -, e0, e1, -, -⟩ := idx_zero t
  have hemb : ((cfg0.win 1).blk t).view.emb (ix2 p q) = ix2 p q := by
    funext a; apply Fin.ext
    match a with
    | ⟨0, _⟩ => show win0_1.index t (0 : Fin 2) * 128 + 1 * p.val = p.val; omega
    | ⟨1, _⟩ => show win0_1.index t (1 : Fin 2) * 128 + 1 * q.val = q.val; omega
  show (V m c main_v1 : S128x128.Idx → EReal) (((cfg0.win 1).blk t).view.emb (ix2 p q)) = _
  rw [hemb, V_main_v1, reshape_apply]

/-- The 1 × 1 shape has one index. -/
theorem idx_one (j : S1x1.Idx) : j = ix2 (0 : Fin 1) (0 : Fin 1) :=
  funext fun a => Fin.ext (by
    match a with
    | ⟨0, _⟩ => have h : (j 0).val < 1 := (j 0).isLt; show (j 0).val = 0; omega
    | ⟨1, _⟩ => have h : (j 1).val < 1 := (j 1).isLt; show (j 1).val = 0; omega)

/-- The body's stored value, over tiles that hold two sample vectors 128 to a row, is the loss of those vectors. -/
theorem pay_loss (X0 X1 : FVec Ideal S128x128 .f32) (a b : FVec Ideal S16384 .f32)
    (h0 : ∀ p q, X0 (ix2 p q) = a (ix1 (cell p q))) (h1 : ∀ p q, X1 (ix2 p q) = b (ix1 (cell p q))) (j : S1x1.Idx) :
    k0_pay1 (F := Ideal) X0 X1 j = loss a b := by
  rw [idx_one j, pay_eq_momentLoss]
  unfold loss
  exact congrArg _ (funext fun p => funext fun q => by rw [h0, h1])

theorem hz : (![0, 0] : Fin 2 → Nat) = fun _ => 0 := funext fun a => by fin_cases a <;> rfl

/-- What the one point writes back is the output block of the constant array holding the loss of the two arguments. -/
theorem flushed_eq (c : Dev nD) (t : Fin cfg0.N) :
    (dats m 0 c).flushed 2 t = ((cfg0.win 2).blk t).view.read (Elt Ideal)
      (fun _ => loss (m ((c : Thread nD τ).loc main_arg0)) (m ((c : Thread nD τ).loc main_arg1)) : S1x1.Idx → EReal) := by
  show (cfg0.win 2).cut (grid0.coords t) ((dats m 0 c).after 2 t) = _
  rw [after0_2]
  unfold out0_2
  rw [View.canon_unit_zero hz]
  simp only [View.ld_unit_zero (S := S128x128) hz]
  funext j
  exact pay_loss (iblk m c 0 t) (iblk m c 1 t) _ _ (iblk0_apply m c t) (iblk1_apply m c t) j

/-- The output block of the one point is the whole 1 × 1 array. -/
theorem cover (i : S1x1.Idx) : ∃ t : Fin cfg0.N, (cfg0.win 2).flush t = true ∧ i ∈ ((cfg0.win 2).blk t).view.set := by
  refine ⟨t0_0, flush0_2 t0_0, ?_⟩
  obtain ⟨-, -, -, -, e4, e5⟩ := idx_zero t0_0
  show i ∈ ((View.whole main_v2).slice (win0_2.rect t0_0)).set
  rw [View.set_slice_whole, Rect.mem_set_unit]
  intro a
  match a with
  | ⟨0, _⟩ =>
    have h : (i 0).val < 1 := (i 0).isLt
    show win0_2.index t0_0 (0 : Fin 2) * 1 ≤ (i 0).val ∧ (i 0).val < win0_2.index t0_0 (0 : Fin 2) * 1 + 1
    omega
  | ⟨1, _⟩ =>
    have h : (i 1).val < 1 := (i 1).isLt
    show win0_2.index t0_0 (1 : Fin 2) * 1 ≤ (i 1).val ∧ (i 1).val < win0_2.index t0_0 (1 : Fin 2) * 1 + 1
    omega

/-- After the region the output array holds the loss of the two arguments. -/
theorem final (c : Dev nD) : (dats m 0 c).arrAt 2 cfg0.N
    = (fun _ => loss (m ((c : Thread nD τ).loc main_arg0)) (m ((c : Thread nD τ).loc main_arg1)) : S1x1.Idx → EReal) :=
  (dats m 0 c).arrAt_eq_of_cover 2 _ (fun t _ => flushed_eq m c t) cover

/-- The program's result: the output array viewed as a scalar. -/
theorem result_eq (c : Dev nD) : Pipeline.afterTail₀ cfgs (dats m) 0 (V0 m) [hostOps1] c main_v3
    = (fun _ => loss (m ((c : Thread nD τ).loc main_arg0)) (m ((c : Thread nD τ).loc main_arg1)) : S_.Idx → EReal) := by
  unfold Pipeline.afterTail₀
  show StableHlo.after hostOps1 _ (Proc.devRef .tc main_v3) = _
  after_results
  have hw := Pipeline.withArrays_arr spec0 launch0.win.arr_inj c (V0 m c) (fun w => (dats m 0 c).arrAt w cfg0.N) 2
  funext i
  show shapeCast S_ (Pipeline.withArrays spec0 c (V0 m c) (fun w => (dats m 0 c).arrAt w cfg0.N)
    (Proc.devRef .tc (Pipeline.arrRef spec0 2))) shapeCasts_S1x1_S_ i = _
  rw [hw, final]
  rfl

/-- Every weakly fair execution of the kernel program terminates with its result at the loss of its two arguments, and
    the arguments unchanged. -/
theorem run : θ_run defs (onTc (τ := τ) (main (F := Ideal))) ⟨m, fun _ => 0, ρ⟩ (fun r => ∀ c : Dev nD,
      r.2.mem ((c.tc : Thread nD τ).loc main_v3)
        = (fun _ => loss (m ((c.tc : Thread nD τ).loc main_arg0)) (m ((c.tc : Thread nD τ).loc main_arg1)) : S_.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v3 (Pipeline.mem_restRefs_of main_v3 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.MomentValue

end
-- ==== Proof.lean ====
/-
  The mean squared pairwise difference of e = predictions − targets over n = 16384 samples, two ways.

  The reference forms the n × n table of (e_i − e_j)², sums it and divides by n·(n − 1). The kernel views the two sample
  vectors as 128 × 128 tiles, takes Σe and Σe² as sums over rows of the rows' sums, and returns
  (2n·Σe² − (2·Σe)·Σe) / (n·(n − 1)). For real entries Σ_{i,j} (e_i − e_j)² = 2n·Σe² − 2·(Σe)², the two divisors are the same
  real number 268419072, and a sum over 16384 samples is the sum over 128 rows of 128. Expanding the square distributes
  products over sums, which is not valid at infinities, so the precondition is used: every input is finite, hence every
  entry a real number. The idealization's ledger of rewrites is empty, so the preservation conjunct states nothing.
-/
import proofs.«150791_j35613868818814_1_alg».proof.Defs
import proofs.«150791_j35613868818814_1_alg».proof.Proof.Gen.Kernel
import proofs.«150791_j35613868818814_1_alg».proof.Proof.Gen.Kernel.Skeleton
import proofs.«150791_j35613868818814_1_alg».proof.Proof.Gen.Kernel.Launch
import proofs.«150791_j35613868818814_1_alg».proof.Proof.Gen.Kernel.Points
import proofs.«150791_j35613868818814_1_alg».proof.Proof.Gen.Kernel.Frame
import proofs.«150791_j35613868818814_1_alg».proof.Proof.Gen.KernelIdeal
import proofs.«150791_j35613868818814_1_alg».proof.Proof.Gen.KernelIdeal.Skeleton
import proofs.«150791_j35613868818814_1_alg».proof.Proof.Gen.KernelIdeal.Launch
import proofs.«150791_j35613868818814_1_alg».proof.Proof.Gen.KernelIdeal.Points
import proofs.«150791_j35613868818814_1_alg».proof.Proof.Gen.KernelIdeal.Frame
import proofs.«150791_j35613868818814_1_alg».proof.Proof.Gen.ReferenceIdeal
import proofs.«150791_j35613868818814_1_alg».proof.Proof.Gen.Pre_finite_inputs
import proofs.«150791_j35613868818814_1_alg».proof.Proof.Gen.ReferenceIdeal.Run
import proofs.«150791_j35613868818814_1_alg».proof.Proof.Gen.ReferenceIdeal.Read
import proofs.«150791_j35613868818814_1_alg».proof.Proof.Moments
import proofs.«150791_j35613868818814_1_alg».proof.Proof.Finite
import proofs.«150791_j35613868818814_1_alg».proof.Proof.RefValue
import proofs.«150791_j35613868818814_1_alg».proof.Proof.KernelRun
import Idealize.ShloMosaic.Adequacy
import Idealize.ShloMosaic.Init

noncomputable section

namespace Cert.Proof

open Idealize.ShloMosaic Idealize.ShloMosaic.ValueIdx Idealize.SL.Sem

/-- The two programs as written run, and leave their arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- On real entries the reference's result is the kernel's loss: the pair form through the two moments. -/
theorem reference_eq_loss (x y : FVec Ideal Cert.Pre_finite_inputs.S16384 .f32)
    (h : Cert.Pre_finite_inputs.fn (F := Ideal) x y = fun _ => 1#1) :
    Cert.ReferenceIdeal.Read.val_main_v10 (F := Ideal) x y = fun _ => Cert.KernelIdeal.MomentValue.loss x y := by
  obtain ⟨hx, hy⟩ := Cert.PairLoss.Finite.entries_real x y h
  funext i
  rw [Cert.ReferenceIdeal.PairValue.result_eq_pairLoss,
    Cert.PairLoss.pairLoss_eq_momentLoss (fun k => x (ix1 k)) (fun k => y (ix1 k)) hx hy]
  rfl

/-- From memories that agree on the two sample vectors, both idealized programs end with the same value. -/
theorem algebraic : Cert.algebraic_KernelIdeal_ReferenceIdeal := by
  intro m ρ m' ρ' hpre hagree
  refine ⟨_, Cert.KernelIdeal.MomentValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v10_eq]
  exact reference_eq_loss _ _ (hpre c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
